-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000 : Shape := ⟨1, ![8000000]⟩
abbrev S2048 : Shape := ⟨1, ![2048]⟩
abbrev S_ : Shape := ⟨0, ![]⟩

class Facts : Prop where
  bcast_S_S8000000 : S_.BroadcastsInDim S8000000 (![] : Fin 0 → Fin S8000000.rank)
  reducesTo_S8000000_S_d0 : S8000000.ReducesTo [0] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8000000 .f32) (main_arg1 : FVec F S8000000 .f32) (main_arg2 : FVec F S2048 .f32) (main_arg3 : FVec F S2048 .f32) (main_arg4 : IVec S8000000 32) (main_arg5 : IVec S8000000 32) : IVec S_ 1 :=
  let main_v0 : FVec F S8000000 .f32 := Host.absf main_arg0
  let main_cst : FVec F S_ .f32 := constant S_ .f32 0x7F800000#32
  let main_v1 : FVec F S8000000 .f32 := broadcastInDim S8000000 ![] bcast_S_S8000000 main_cst
  let main_v2 : IVec S8000000 1 := cmpf .olt main_v0 main_v1
  let main_c : IVec S_ 1 := constantI S_ 1 1#1
  let main_v3 : IVec S_ 1 := (fun x v => Host.reduce IntOp.andi x v reducesTo_S8000000_S_d0 h_S_) main_v2 main_c
  let main_v4 : FVec F S8000000 .f32 := Host.absf main_arg1
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8000000 : Shape := ⟨1, ![8000000]⟩
abbrev S2048 : Shape := ⟨1, ![2048]⟩
abbrev S62500x128 : Shape := ⟨2, ![62500, 128]⟩
abbrev S4096x128 : Shape := ⟨2, ![4096, 128]⟩
abbrev S_ : Shape := ⟨0, ![]⟩
abbrev S8000000x1 : Shape := ⟨2, ![8000000, 1]⟩

abbrev nBuf : Space → Nat
  | .hbm => 57
  | .vmem => 10
  | .smem => 0
  | _ => 0

abbrev bufTy : (tb : Table) → Fin (tcTables nBuf tb) → BufTy
  | .hbm, ⟨0, _⟩ => ⟨S8000000, .f32⟩
  | .hbm, ⟨1, _⟩ => ⟨S8000000, .f32⟩
  | .hbm, ⟨2, _⟩ => ⟨S2048, .f32⟩
  | .hbm, ⟨3, _⟩ => ⟨S2048, .f32⟩
  | .hbm, ⟨4, _⟩ => ⟨S8000000, .i32⟩
  | .hbm, ⟨5, _⟩ => ⟨S8000000, .i32⟩
  | .hbm, ⟨6, _⟩ => ⟨S62500x128, .f32⟩
  | .hbm, ⟨7, _⟩ => ⟨S62500x128, .f32⟩
  | .hbm, ⟨8, _⟩ => ⟨S62500x128, .i32⟩
  | .hbm, ⟨9, _⟩ => ⟨S62500x128, .f32⟩
  | .hbm, ⟨10, _⟩ => ⟨S62500x128, .f32⟩
  | .hbm, ⟨11, _⟩ => ⟨S8000000, .f32⟩
  | .hbm, ⟨12, _⟩ => ⟨S8000000, .f32⟩
  | .hbm, ⟨13, _⟩ => ⟨S_, .f32⟩
  | .hbm, ⟨14, _⟩ => ⟨S2048, .f32⟩
  | .hbm, ⟨15, _⟩ => ⟨S8000000x1, .i32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S8000000x1, .i32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .i1⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | _, _ => ⟨S8000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8000000_S62500x128 : S8000000.ShapeCasts S62500x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S62500x128_S8000000 : S62500x128.ShapeCasts S8000000
  bcast_S_S2048 : S_.BroadcastsInDim S2048 (![] : Fin 0 → Fin S2048.rank)
  bcast_S8000000_S8000000x1_0 : S8000000.BroadcastsInDim S8000000x1 (![0] : Fin 1 → Fin S8000000x1.rank)
  reducesTo_S2048_S_d0 : S2048.ReducesTo [0] S_
  h_S_ : 0 < S_.numel
  scatter_S2048_S8000000x1_S8000000_n_0_0_1_wf : ScatterDims.WF S2048 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S62500x128.size a
  hwx0_0 : ∀ i : grid0.Coords, EltTy.bits .f32 = 32 ∨ (Rect.unit (s := S62500x128) (fun a => cc0_transform_0 i a * S4096x128.size a) (fun a => (Pipeline.Clip.of (cc0_transform_0 i a) (S4096x128.size a) (S62500x128.size a)).extent (S4096x128.size a)) fun a => Pipeline.Clip.inb (Pipeline.Clip.ok_of (hstart0_0 i a))).WholeWords (EltTy.packing .f32)
  hwxs0_0 : ∀ i : grid0.Coords, EltTy.bits .f32 = 32 ∨ (Rect.unit (s := S4096x128) (fun _ => 0) (fun a => (Pipeline.Clip.of (cc0_transform_0 i a) (S4096x128.size a) (S62500x128.size a)).extent (S4096x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S62500x128.size a
  hwx0_1 : ∀ i : grid0.Coords, EltTy.bits .f32 = 32 ∨ (Rect.unit (s := S62500x128) (fun a => cc0_transform_1 i a * S4096x128.size a) (fun a => (Pipeline.Clip.of (cc0_transform_1 i a) (S4096x128.size a) (S62500x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S62500x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x128.size a < S62500x128.size a
  hwx0_2 : ∀ i : grid0.Coords, EltTy.bits .i32 = 32 ∨ (Rect.unit (s := S62500x128) (fun a => cc0_transform_2 i a * S4096x128.size a) (fun a => (Pipeline.Clip.of (cc0_transform_2 i a) (S4096x128.size a) (S62500x128.size a)).extent (S4096x128.size a)) fun a => Pipeline.Clip.inb (Pipeline.Clip.ok_of (hstart0_2 i a))).WholeWords (EltTy.packing .i32)
  hwxs0_2 : ∀ i : grid0.Coords, EltTy.bits .i32 = 32 ∨ (Rect.unit (s := S4096x128) (fun _ => 0) (fun a => (Pipeline.Clip.of (cc0_transform_2 i a) (S4096x128.size a) (S62500x128.size a)).extent (S4096x128.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x128.size a < S62500x128.size a
  hwx0_3 : ∀ i : grid0.Coords, EltTy.bits .f32 = 32 ∨ (Rect.unit (s := S62500x128) (fun a => cc0_transform_3 i a * S4096x128.size a) (fun a => (Pipeline.Clip.of (cc0_transform_3 i a) (S4096x128.size a) (S62500x128.size a)).extent (S4096x128.size a)) fun a => Pipeline.Clip.inb (Pipeline.Clip.ok_of (hstart0_3 i a))).WholeWords (EltTy.packing .f32)
  hwxs0_3 : ∀ i : grid0.Coords, EltTy.bits .f32 = 32 ∨ (Rect.unit (s := S4096x128) (fun _ => 0) (fun a => (Pipeline.Clip.of (cc0_transform_3 i a) (S4096x128.size a) (S62500x128.size a)).extent (S4096x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4096x128.size a < S62500x128.size a
  hwx0_4 : ∀ i : grid0.Coords, EltTy.bits .f32 = 32 ∨ (Rect.unit (s := S62500x128) (fun a => cc0_transform_4 i a * S4096x128.size a) (fun a => (Pipeline.Clip.of (cc0_transform_4 i a) (S4096x128.size a) (S62500x128.size a)).extent (S4096x128.size a)) fun a => Pipeline.Clip.inb (Pipeline.Clip.ok_of (hstart0_4 i a))).WholeWords (EltTy.packing .f32)
  hwxs0_4 : ∀ i : grid0.Coords, EltTy.bits .f32 = 32 ∨ (Rect.unit (s := S4096x128) (fun _ => 0) (fun a => (Pipeline.Clip.of (cc0_transform_4 i a) (S4096x128.size a) (S62500x128.size a)).extent (S4096x128.size a)) fun a => (Nat.zero_add _).trans_le (Pipeline.Clip.extent_le (Pipeline.Clip.ok_of (hstart0_4 i a)))).WholeWords (EltTy.packing .f32)

variable [Facts₀]

def scatter_S2048_S8000000x1_S8000000_n_0_0_1 : ScatterDims S2048 S8000000x1 S8000000 where
  updateWindowDims := []
  insertedWindowDims := [0]
  scatterDimsToOperandDims := [0]
  indexVectorDim := 1
  wf := scatter_S2048_S8000000x1_S8000000_n_0_0_1_wf

abbrev win0_0 : Pipeline.Window sig grid0 :=
  Pipeline.Window.ofSpecClip (Memref.whole main_v0) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S4096x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3_0) S4096x128.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3_1) S4096x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8000000 : Shape := ⟨1, ![8000000]⟩
abbrev S2048 : Shape := ⟨1, ![2048]⟩
abbrev S_ : Shape := ⟨0, ![]⟩
abbrev S8000000x1 : Shape := ⟨2, ![8000000, 1]⟩

abbrev nBuf : Space → Nat
  | .hbm => 72
  | .vmem => 0
  | .smem => 0
  | _ => 0

abbrev bufTy : (tb : Table) → Fin (tcTables nBuf tb) → BufTy
  | .hbm, ⟨0, _⟩ => ⟨S8000000, .f32⟩
  | .hbm, ⟨1, _⟩ => ⟨S8000000, .f32⟩
  | .hbm, ⟨2, _⟩ => ⟨S2048, .f32⟩
  | .hbm, ⟨3, _⟩ => ⟨S2048, .f32⟩
  | .hbm, ⟨4, _⟩ => ⟨S8000000, .i32⟩
  | .hbm, ⟨5, _⟩ => ⟨S8000000, .i32⟩
  | .hbm, ⟨6, _⟩ => ⟨S8000000, .f32⟩
  | .hbm, ⟨7, _⟩ => ⟨S8000000, .f32⟩
  | .hbm, ⟨8, _⟩ => ⟨S8000000, .f32⟩
  | .hbm, ⟨9, _⟩ => ⟨S_, .f32⟩
  | .hbm, ⟨10, _⟩ => ⟨S_, .f32⟩
  | .hbm, ⟨11, _⟩ => ⟨S8000000, .f32⟩
  | .hbm, ⟨12, _⟩ => ⟨S8000000, .f32⟩
  | .hbm, ⟨13, _⟩ => ⟨S8000000, .f32⟩
  | .hbm, ⟨14, _⟩ => ⟨S8000000, .f32⟩
  | .hbm, ⟨15, _⟩ => ⟨S_, .f32⟩
  | .hbm, ⟨16, _⟩ => ⟨S_, .f32⟩
  | .hbm, ⟨17, _⟩ => ⟨S8000000, .f32⟩
  | .hbm, ⟨18, _⟩ => ⟨S8000000, .f32⟩
  | .hbm, ⟨19, _⟩ => ⟨S8000000, .f32⟩
  | .hbm, ⟨20, _⟩ => ⟨S_, .f32⟩
  | .hbm, ⟨21, _⟩ => ⟨S8000000, .f32⟩
  | .hbm, ⟨22, _⟩ => ⟨S8000000, .f32⟩
  | .hbm, ⟨23, _⟩ => ⟨S8000000, .f32⟩
  | .hbm, ⟨24, _⟩ => ⟨S8000000, .f32⟩
  | .hbm, ⟨25, _⟩ => ⟨S8000000, .f32⟩
  | .hbm, ⟨26, _⟩ => ⟨S_, .f32⟩
  | .hbm, ⟨27, _⟩ => ⟨S2048, .f32⟩
  | .hbm, ⟨28, _⟩ => ⟨S8000000x1, .i32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S8000000x1, .i32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .i1⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_call4_v0 : Ref sig .tc := ⟨.hbm, 55, rfl⟩
abbrev main_call4_v1 : Ref sig .tc := ⟨.hbm, 56, rfl⟩
abbrev main_v30 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_11 : Ref sig .tc := ⟨.hbm, 65, rfl⟩
abbrev main_v37 : Ref sig .tc := ⟨.hbm, 66, rfl⟩
abbrev main_cst_12 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S_S2048 : S_.BroadcastsInDim S2048 (![] : Fin 0 → Fin S2048.rank)
  bcast_S8000000_S8000000x1_0 : S8000000.BroadcastsInDim S8000000x1 (![0] : Fin 1 → Fin S8000000x1.rank)
  reducesTo_S2048_S_d0 : S2048.ReducesTo [0] S_
  h_S_ : 0 < S_.numel
  scatter_S2048_S8000000x1_S8000000_n_0_0_1_wf : ScatterDims.WF S2048 S8000000x1 S8000000 [] [0] [0] 1

variable [Facts₀]

def scatter_S2048_S8000000x1_S8000000_n_0_0_1 : ScatterDims S2048 S8000000x1 S8000000 where
  updateWindowDims := []
  insertedWindowDims := [0]
  scatterDimsToOperandDims := [0]
  indexVectorDim := 1
  wf := scatter_S2048_S8000000x1_S8000000_n_0_0_1_wf

class Facts : Prop extends Facts₀ where

variable [Facts]
-- ==== Proof.BodyBits.lean ====
/-
  The body of the masked binary-cross-entropy kernel and its launch, at any float instance.

  The pallas_call walks the [62500, 128] arrays of predictions, targets and masks in sixteen blocks of 4096 rows.
  Fifteen blocks lie inside the arrays; the last one starts at row 61440 and overhangs the arrays' end by 3036
  rows, so its transfers are cut to the 1060 rows that exist. At each point the body loads the three whole
  staging blocks, computes from them, entry by entry, the loss term
  `0 - (t * max(log(p * m), -100) + (1 - t) * max(log1p(0 - p * m), -100))` and the mask as a float `m`,
  and stores the two results whole.

  What is proved here: the body's triple (two whole stores whose payloads are functions of the three loads); the
  proof data of the pipeline — after the body each input staging block holds its block of the array on the rows
  inside the array, and each output staging block the body's payload of the three input staging blocks —; the
  body obligation in its loose form (every window is stated on the rows its transfers move only: past the array's
  end the staging rows hold values nothing names, and what the body computes from them is never written back);
  the run of the whole program around the region; and the program's frame.
-/
import proofs.«150442_j77068893159481_1_alg».proof.Proof.Gen.Kernel.Frame
import proofs.«150442_j77068893159481_1_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The one rectangle every access of the body goes through: the whole staging block. -/
abbrev whole : Rect S4096x128 := Rect.unit (s := S4096x128) ![0, 0] S4096x128.size inb_S4096x128_S4096x128_0_0

/-- The loss staging block after the body: its one store, of the loss payload of the three loads. -/
def lossOut (x0 x1 : Vec F S4096x128 .f32) (x2 : Vec F S4096x128 .i32) : Vec F S4096x128 .f32 :=
  View.canon [⟨whole, k0_pay2 (View.ld x0 whole) (View.ld x1 whole) (View.ld x2 whole)⟩]

/-- The mask staging block after the body: its one store, of the mask converted to a float. -/
def maskOut (x2 : Vec F S4096x128 .i32) : Vec F S4096x128 .f32 :=
  View.canon [⟨whole, k0_pay1 (View.ld x2 whole)⟩]

/-- A store through the whole block covers the block. -/
theorem cover_whole (p0 : Vec F S4096x128 .f32) (y : S4096x128.Idx) :
    ∃ pc ∈ ([⟨whole, p0⟩] : List (View.Piece (Elt F) S4096x128 .f32)), y ∈ pc.1.set :=
  View.cover_of_tiled [⟨whole, p0⟩] S4096x128.size (by rfl) y

set_option maxHeartbeats 1000000 in
/-- The body on five whole staging memrefs, the three inputs' at contents `x0`, `x1`, `x2` and the two outputs' at
    anything: it runs to the continuation with the inputs' as they were, the loss block at `lossOut x0 x1 x2` and the
    mask block at `maskOut x2`. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .i32) (harg3 : arg3.IsWhole) (arg4 : Memref sig .tc .vmem S4096x128 .f32) (harg4 : arg4.IsWhole)
    (arg5 : Memref sig .tc .vmem S4096x128 .f32) (harg5 : arg5.IsWhole)
    (x0 x1 : Vec F S4096x128 .f32) (x2 : Vec F S4096x128 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lossOut x0 x1 x2) ∗ owns (c : Thread nD τ) arg5 fullShare (maskOut x2)) -∗ K ⟨⟩))
      ⊢ wp frame (wpE (defs₀ (F := F)) Variants.none c none) E (cc0__bce_kernel i arg1 harg1 arg2 harg2 arg3 harg3 arg4 harg4 arg5 harg5) K := by
  simp only [cc0__bce_kernel_eq_skeleton]; unfold cc0__bce_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  · iexists _; isplitr
    swap; · iexact H4
    ipureintro
    exact View.read_writes_eq_canon _ _ _ (cover_whole _)

/-! ## The proof data -/

/-- The blocks of the three input arrays at point `t` as the fetches read them: the rows of the block that lie
    inside the array (4096 rows at the first fifteen points, 1060 at the last). -/
def predBlk (c : Dev nD) (t : Fin cfg0.N) : (win0_0.xblock (grid0.coords t)).Idx → Elt F .f32 :=
  (win0_0.blk t).view.read (Elt F) (V m c main_v0)
def targBlk (c : Dev nD) (t : Fin cfg0.N) : (win0_1.xblock (grid0.coords t)).Idx → Elt F .f32 :=
  (win0_1.blk t).view.read (Elt F) (V m c main_v1)
def maskBlk (c : Dev nD) (t : Fin cfg0.N) : (win0_2.xblock (grid0.coords t)).Idx → Elt F .i32 :=
  (win0_2.blk t).view.read (Elt F) (V m c main_v2)

/-- The same filled out to whole staging blocks: past the array's end the obligation states nothing, and this
    filler is the zero word. -/
def predFull (c : Dev nD) (t : Fin cfg0.N) : Vec F S4096x128 .f32 :=
  win0_0.fill (grid0.coords t) (fun _ => Scalar.ofBits .f32 0#32) (predBlk m c t)
def targFull (c : Dev nD) (t : Fin cfg0.N) : Vec F S4096x128 .f32 :=
  win0_1.fill (grid0.coords t) (fun _ => Scalar.ofBits .f32 0#32) (targBlk m c t)
def maskFull (c : Dev nD) (t : Fin cfg0.N) : Vec F S4096x128 .i32 :=
  win0_2.fill (grid0.coords t) (fun _ => (0#32 : BitVec 32)) (maskBlk m c t)

/-- The proof data of the one pipeline on core `c`: the arrays as the region finds them; after the body at point
    `t` the three input staging blocks at their filled-out blocks and the two output staging blocks at the body's
    payloads of those; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => predFull m c t
    | ⟨1, _⟩ => targFull m c t
    | ⟨2, _⟩ => maskFull m c t
    | ⟨3, _⟩ => lossOut (predFull m c t) (targFull m c t) (maskFull m c t)
    | ⟨4, _⟩ => maskOut (maskFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = predFull m c t := by dsimp only [dats]
theorem after_1 (c : Dev nD) (t : Fin cfg0.N) : (dats m 0 c).after 1 t = targFull m c t := by dsimp only [dats]
theorem after_2 (c : Dev nD) (t : Fin cfg0.N) : (dats m 0 c).after 2 t = maskFull m c t := by dsimp only [dats]
theorem after_3 (c : Dev nD) (t : Fin cfg0.N) :
    (dats m 0 c).after 3 t = lossOut (predFull m c t) (targFull m c t) (maskFull m c t) := by dsimp only [dats]
theorem after_4 (c : Dev nD) (t : Fin cfg0.N) : (dats m 0 c).after 4 t = maskOut (maskFull m c t) := by dsimp only [dats]

/-- The two output windows are never fetched. -/
theorem fetch_3 : ∀ t : Fin cfg0.N, (cfg0.win 3).fetch t = false :=
  (by decide +kernel : ∀ t : Fin grid0.N, win0_3.fetch t = false)
theorem fetch_4 : ∀ t : Fin cfg0.N, (cfg0.win 4).fetch t = false :=
  (by decide +kernel : ∀ t : Fin grid0.N, win0_4.fetch t = false)

/-- What the body finds: each input staging block just fetched — its block on the rows inside the array, `d`
    elsewhere —, -/
theorem before_0 (c : Dev nD) (t : Fin cfg0.N) (d) :
    (dats m 0 c).before (0 : Fin 5) t d = win0_0.fill (grid0.coords t) d (predBlk m c t) := by
  unfold Dat.before; rw [if_pos (fetch0_0 t)]; rfl
theorem before_1 (c : Dev nD) (t : Fin cfg0.N) (d) :
    (dats m 0 c).before (1 : Fin 5) t d = win0_1.fill (grid0.coords t) d (targBlk m c t) := by
  unfold Dat.before; rw [if_pos (fetch0_1 t)]; rfl
theorem before_2 (c : Dev nD) (t : Fin cfg0.N) (d) :
    (dats m 0 c).before (2 : Fin 5) t d = win0_2.fill (grid0.coords t) d (maskBlk m c t) := by
  unfold Dat.before; rw [if_pos (fetch0_2 t)]; rfl
/-- and each output staging block at contents nothing names (it was written back at the point before). -/
theorem before_3 (c : Dev nD) (t : Fin cfg0.N) (d) : (dats m 0 c).before (3 : Fin 5) t d = d := by
  unfold Dat.before
  rw [if_neg (by rw [fetch_3 t]; exact Bool.false_ne_true)]
  by_cases h0 : t.val = 0
  · rw [if_pos h0]
  · rw [if_neg h0]; exact if_pos (flush0_3 _)
theorem before_4 (c : Dev nD) (t : Fin cfg0.N) (d) : (dats m 0 c).before (4 : Fin 5) t d = d := by
  unfold Dat.before
  rw [if_neg (by rw [fetch_4 t]; exact Bool.false_ne_true)]
  by_cases h0 : t.val = 0
  · rw [if_pos h0]
  · rw [if_neg h0]; exact if_pos (flush0_4 _)

/-! ## The body obligation -/

/-- The payloads are entrywise: the loss payload at an entry reads its three arguments at that entry only, -/
theorem k0_pay2_congr (x0 y0 x1 y1 : Vec F S4096x128 .f32) (x2 y2 : Vec F S4096x128 .i32) (j : S4096x128.Idx)
    (h0 : x0 j = y0 j) (h1 : x1 j = y1 j) (h2 : x2 j = y2 j) : k0_pay2 x0 x1 x2 j = k0_pay2 y0 y1 y2 j := by
  unfold k0_pay2 k0_pay1
  simp only [shapeCast_self, mulf, subf, addf, log, log1p, maximumf, sitofp]
  rw [h0, h1, h2]
/-- and the mask payload its one. -/
theorem k0_pay1_congr (x2 y2 : Vec F S4096x128 .i32) (j : S4096x128.Idx) (h2 : x2 j = y2 j) : k0_pay1 x2 j = k0_pay1 y2 j := by
  unfold k0_pay1
  simp only [shapeCast_self, sitofp]
  rw [h2]

theorem whole_zero : (![0, 0] : Fin 2 → Nat) = fun _ => 0 := funext fun a => by fin_cases a <;> rfl

/-- The one store through the whole block leaves the payload of the loads through the whole block: the payload
    of the blocks themselves. -/
theorem lossOut_eq (x0 x1 : Vec F S4096x128 .f32) (x2 : Vec F S4096x128 .i32) : lossOut x0 x1 x2 = k0_pay2 x0 x1 x2 := by
  unfold lossOut
  rw [View.canon_unit_zero whole_zero]
  simp only [View.ld_unit_zero (S := S4096x128) whole_zero]
theorem maskOut_eq (x2 : Vec F S4096x128 .i32) : maskOut x2 = k0_pay1 x2 := by
  unfold maskOut
  rw [View.canon_unit_zero whole_zero]
  simp only [View.ld_unit_zero (S := S4096x128) whole_zero]

/-- The library's body obligation in its loose form, from `sound_kernel` at the point's staging buffers: the inputs'
    arrive holding their blocks filled out with some `d` past the array's end, the outputs' holding anything; the
    inputs' leave as they came, and the outputs' holding the payloads of the inputs' — which on the rows the
    transfers move are the payloads of the zero-filled blocks, the payloads being entrywise. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (predBlk m c t)) (win0_1.fill (grid0.coords t) d1 (targBlk m c t))
    (win0_2.fill (grid0.coords t) d2 (maskBlk m c t)) _)
  isplitl [H0]; · iexact H0
  isplitl [H1]; · iexact H1
  isplitl [H2]; · iexact H2
  isplitl [H3]; · iexists d3; iexact H3
  isplitl [H4]; · iexists d4; iexact H4
  iintro ⟨H0, H1, H2, H3, H4⟩
  isplitl [HΦ]; · iexact HΦ
  isplitl [Ho]; · iexact Ho
  have hx : win0_0.cut (grid0.coords t) (predFull m c t) = predBlk m c t := win0_0.cut_fill _ _ _
  have hy : win0_1.cut (grid0.coords t) (targFull m c t) = targBlk m c t := win0_1.cut_fill _ _ _
  have hz : win0_2.cut (grid0.coords t) (maskFull m c t) = maskBlk m c t := win0_2.cut_fill _ _ _
  isplitl [H0]
  · iexists d0
    rw [after_0]
    change _ ⊢ owns (c : Thread nD τ) (stage0_0 (cfg0.slots t 0)) fullShare (win0_0.fill (grid0.coords t) d0 (win0_0.cut (grid0.coords t) (predFull m c t)))
    rw [hx]; try iexact H0
  isplitl [H1]
  · iexists d1
    rw [after_1]
    change _ ⊢ owns (c : Thread nD τ) (stage0_1 (cfg0.slots t 1)) fullShare (win0_1.fill (grid0.coords t) d1 (win0_1.cut (grid0.coords t) (targFull m c t)))
    rw [hy]; try iexact H1
  isplitl [H2]
  · iexists d2
    rw [after_2]
    change _ ⊢ owns (c : Thread nD τ) (stage0_2 (cfg0.slots t 2)) fullShare (win0_2.fill (grid0.coords t) d2 (win0_2.cut (grid0.coords t) (maskFull m c t)))
    rw [hz]; try iexact H2
  isplitl [H3]
  · iexists lossOut (win0_0.fill (grid0.coords t) d0 (predBlk m c t)) (win0_1.fill (grid0.coords t) d1 (targBlk m c t)) (win0_2.fill (grid0.coords t) d2 (maskBlk m c t))
    rw [after_3]
    change _ ⊢ owns (c : Thread nD τ) (stage0_3 (cfg0.slots t 3)) fullShare (win0_3.fill (grid0.coords t) _ (win0_3.cut (grid0.coords t) (lossOut (predFull m c t) (targFull m c t) (maskFull m c t))))
    rw [win0_3.fill_congr_cut (grid0.coords t) (funext fun j => by
      show lossOut _ _ _ (win0_3.xinj (grid0.coords t) j) = lossOut _ _ _ (win0_3.xinj (grid0.coords t) j)
      rw [lossOut_eq, lossOut_eq]
      exact k0_pay2_congr _ _ _ _ _ _ _
        ((win0_0.fill_xinj (grid0.coords t) d0 (predBlk m c t) j).trans (win0_0.fill_xinj (grid0.coords t) _ (predBlk m c t) j).symm)
        ((win0_1.fill_xinj (grid0.coords t) d1 (targBlk m c t) j).trans (win0_1.fill_xinj (grid0.coords t) _ (targBlk m c t) j).symm)
        ((win0_2.fill_xinj (grid0.coords t) d2 (maskBlk m c t) j).trans (win0_2.fill_xinj (grid0.coords t) _ (maskBlk m c t) j).symm))]
    try iexact H3
  · iexists maskOut (win0_2.fill (grid0.coords t) d2 (maskBlk m c t))
    rw [after_4]
    change _ ⊢ owns (c : Thread nD τ) (stage0_4 (cfg0.slots t 4)) fullShare (win0_4.fill (grid0.coords t) _ (win0_4.cut (grid0.coords t) (maskOut (maskFull m c t))))
    rw [win0_4.fill_congr_cut (grid0.coords t) (funext fun j => by
      show maskOut _ (win0_4.xinj (grid0.coords t) j) = maskOut _ (win0_4.xinj (grid0.coords t) j)
      rw [maskOut_eq, maskOut_eq]
      exact k0_pay1_congr _ _ _
        ((win0_2.fill_xinj (grid0.coords t) d2 (maskBlk m c t) j).trans (win0_2.fill_xinj (grid0.coords t) _ (maskBlk m c t) j).symm))]
    try iexact H4

/-! ## The run and the frame -/

set_option backward.isDefEq.respectTransparency.types false in
/-- At the compiled mesh, for any float values, from any memory with zero counters: every weakly fair execution of
    @main terminates, and every final state has every array of the pipeline at what the library computes from the
    proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.BodyIdeal.lean ====
/-
  The body of the masked binary-cross-entropy kernel and its launch, at any float instance.

  The pallas_call walks the [62500, 128] arrays of predictions, targets and masks in sixteen blocks of 4096 rows.
  Fifteen blocks lie inside the arrays; the last one starts at row 61440 and overhangs the arrays' end by 3036
  rows, so its transfers are cut to the 1060 rows that exist. At each point the body loads the three whole
  staging blocks, computes from them, entry by entry, the loss term
  `0 - (t * max(log(p * m), -100) + (1 - t) * max(log1p(0 - p * m), -100))` and the mask as a float `m`,
  and stores the two results whole.

  What is proved here: the body's triple (two whole stores whose payloads are functions of the three loads); the
  proof data of the pipeline — after the body each input staging block holds its block of the array on the rows
  inside the array, and each output staging block the body's payload of the three input staging blocks —; the
  body obligation in its loose form (every window is stated on the rows its transfers move only: past the array's
  end the staging rows hold values nothing names, and what the body computes from them is never written back);
  the run of the whole program around the region; and the program's frame.
-/
import proofs.«150442_j77068893159481_1_alg».proof.Proof.Gen.KernelIdeal.Frame
import proofs.«150442_j77068893159481_1_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The one rectangle every access of the body goes through: the whole staging block. -/
abbrev whole : Rect S4096x128 := Rect.unit (s := S4096x128) ![0, 0] S4096x128.size inb_S4096x128_S4096x128_0_0

/-- The loss staging block after the body: its one store, of the loss payload of the three loads. -/
def lossOut (x0 x1 : Vec F S4096x128 .f32) (x2 : Vec F S4096x128 .i32) : Vec F S4096x128 .f32 :=
  View.canon [⟨whole, k0_pay2 (View.ld x0 whole) (View.ld x1 whole) (View.ld x2 whole)⟩]

/-- The mask staging block after the body: its one store, of the mask converted to a float. -/
def maskOut (x2 : Vec F S4096x128 .i32) : Vec F S4096x128 .f32 :=
  View.canon [⟨whole, k0_pay1 (View.ld x2 whole)⟩]

/-- A store through the whole block covers the block. -/
theorem cover_whole (p0 : Vec F S4096x128 .f32) (y : S4096x128.Idx) :
    ∃ pc ∈ ([⟨whole, p0⟩] : List (View.Piece (Elt F) S4096x128 .f32)), y ∈ pc.1.set :=
  View.cover_of_tiled [⟨whole, p0⟩] S4096x128.size (by rfl) y

set_option maxHeartbeats 1000000 in
/-- The body on five whole staging memrefs, the three inputs' at contents `x0`, `x1`, `x2` and the two outputs' at
    anything: it runs to the continuation with the inputs' as they were, the loss block at `lossOut x0 x1 x2` and the
    mask block at `maskOut x2`. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .i32) (harg3 : arg3.IsWhole) (arg4 : Memref sig .tc .vmem S4096x128 .f32) (harg4 : arg4.IsWhole)
    (arg5 : Memref sig .tc .vmem S4096x128 .f32) (harg5 : arg5.IsWhole)
    (x0 x1 : Vec F S4096x128 .f32) (x2 : Vec F S4096x128 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lossOut x0 x1 x2) ∗ owns (c : Thread nD τ) arg5 fullShare (maskOut x2)) -∗ K ⟨⟩))
      ⊢ wp frame (wpE (defs₀ (F := F)) Variants.none c none) E (cc0__bce_kernel i arg1 harg1 arg2 harg2 arg3 harg3 arg4 harg4 arg5 harg5) K := by
  simp only [cc0__bce_kernel_eq_skeleton]; unfold cc0__bce_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole _)
  · iexists _; isplitr
    swap; · iexact H4
    ipureintro
    exact View.read_writes_eq_canon _ _ _ (cover_whole _)

/-! ## The proof data -/

/-- The blocks of the three input arrays at point `t` as the fetches read them: the rows of the block that lie
    inside the array (4096 rows at the first fifteen points, 1060 at the last). -/
def predBlk (c : Dev nD) (t : Fin cfg0.N) : (win0_0.xblock (grid0.coords t)).Idx → Elt F .f32 :=
  (win0_0.blk t).view.read (Elt F) (V m c main_v0)
def targBlk (c : Dev nD) (t : Fin cfg0.N) : (win0_1.xblock (grid0.coords t)).Idx → Elt F .f32 :=
  (win0_1.blk t).view.read (Elt F) (V m c main_v1)
def maskBlk (c : Dev nD) (t : Fin cfg0.N) : (win0_2.xblock (grid0.coords t)).Idx → Elt F .i32 :=
  (win0_2.blk t).view.read (Elt F) (V m c main_v2)

/-- The same filled out to whole staging blocks: past the array's end the obligation states nothing, and this
    filler is the zero word. -/
def predFull (c : Dev nD) (t : Fin cfg0.N) : Vec F S4096x128 .f32 :=
  win0_0.fill (grid0.coords t) (fun _ => Scalar.ofBits .f32 0#32) (predBlk m c t)
def targFull (c : Dev nD) (t : Fin cfg0.N) : Vec F S4096x128 .f32 :=
  win0_1.fill (grid0.coords t) (fun _ => Scalar.ofBits .f32 0#32) (targBlk m c t)
def maskFull (c : Dev nD) (t : Fin cfg0.N) : Vec F S4096x128 .i32 :=
  win0_2.fill (grid0.coords t) (fun _ => (0#32 : BitVec 32)) (maskBlk m c t)

/-- The proof data of the one pipeline on core `c`: the arrays as the region finds them; after the body at point
    `t` the three input staging blocks at their filled-out blocks and the two output staging blocks at the body's
    payloads of those; the invariant the scoped rest and the generator register, untouched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => predFull m c t
    | ⟨1, _⟩ => targFull m c t
    | ⟨2, _⟩ => maskFull m c t
    | ⟨3, _⟩ => lossOut (predFull m c t) (targFull m c t) (maskFull m c t)
    | ⟨4, _⟩ => maskOut (maskFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = predFull m c t := by dsimp only [dats]
theorem after_1 (c : Dev nD) (t : Fin cfg0.N) : (dats m 0 c).after 1 t = targFull m c t := by dsimp only [dats]
theorem after_2 (c : Dev nD) (t : Fin cfg0.N) : (dats m 0 c).after 2 t = maskFull m c t := by dsimp only [dats]
theorem after_3 (c : Dev nD) (t : Fin cfg0.N) :
    (dats m 0 c).after 3 t = lossOut (predFull m c t) (targFull m c t) (maskFull m c t) := by dsimp only [dats]
theorem after_4 (c : Dev nD) (t : Fin cfg0.N) : (dats m 0 c).after 4 t = maskOut (maskFull m c t) := by dsimp only [dats]

/-- The two output windows are never fetched. -/
theorem fetch_3 : ∀ t : Fin cfg0.N, (cfg0.win 3).fetch t = false :=
  (by decide +kernel : ∀ t : Fin grid0.N, win0_3.fetch t = false)
theorem fetch_4 : ∀ t : Fin cfg0.N, (cfg0.win 4).fetch t = false :=
  (by decide +kernel : ∀ t : Fin grid0.N, win0_4.fetch t = false)

/-- What the body finds: each input staging block just fetched — its block on the rows inside the array, `d`
    elsewhere —, -/
theorem before_0 (c : Dev nD) (t : Fin cfg0.N) (d) :
    (dats m 0 c).before (0 : Fin 5) t d = win0_0.fill (grid0.coords t) d (predBlk m c t) := by
  unfold Dat.before; rw [if_pos (fetch0_0 t)]; rfl
theorem before_1 (c : Dev nD) (t : Fin cfg0.N) (d) :
    (dats m 0 c).before (1 : Fin 5) t d = win0_1.fill (grid0.coords t) d (targBlk m c t) := by
  unfold Dat.before; rw [if_pos (fetch0_1 t)]; rfl
theorem before_2 (c : Dev nD) (t : Fin cfg0.N) (d) :
    (dats m 0 c).before (2 : Fin 5) t d = win0_2.fill (grid0.coords t) d (maskBlk m c t) := by
  unfold Dat.before; rw [if_pos (fetch0_2 t)]; rfl
/-- and each output staging block at contents nothing names (it was written back at the point before). -/
theorem before_3 (c : Dev nD) (t : Fin cfg0.N) (d) : (dats m 0 c).before (3 : Fin 5) t d = d := by
  unfold Dat.before
  rw [if_neg (by rw [fetch_3 t]; exact Bool.false_ne_true)]
  by_cases h0 : t.val = 0
  · rw [if_pos h0]
  · rw [if_neg h0]; exact if_pos (flush0_3 _)
theorem before_4 (c : Dev nD) (t : Fin cfg0.N) (d) : (dats m 0 c).before (4 : Fin 5) t d = d := by
  unfold Dat.before
  rw [if_neg (by rw [fetch_4 t]; exact Bool.false_ne_true)]
  by_cases h0 : t.val = 0
  · rw [if_pos h0]
  · rw [if_neg h0]; exact if_pos (flush0_4 _)

/-! ## The body obligation -/

/-- The payloads are entrywise: the loss payload at an entry reads its three arguments at that entry only, -/
theorem k0_pay2_congr (x0 y0 x1 y1 : Vec F S4096x128 .f32) (x2 y2 : Vec F S4096x128 .i32) (j : S4096x128.Idx)
    (h0 : x0 j = y0 j) (h1 : x1 j = y1 j) (h2 : x2 j = y2 j) : k0_pay2 x0 x1 x2 j = k0_pay2 y0 y1 y2 j := by
  unfold k0_pay2 k0_pay1
  simp only [shapeCast_self, mulf, subf, addf, log, log1p, maximumf, sitofp]
  rw [h0, h1, h2]
/-- and the mask payload its one. -/
theorem k0_pay1_congr (x2 y2 : Vec F S4096x128 .i32) (j : S4096x128.Idx) (h2 : x2 j = y2 j) : k0_pay1 x2 j = k0_pay1 y2 j := by
  unfold k0_pay1
  simp only [shapeCast_self, sitofp]
  rw [h2]

theorem whole_zero : (![0, 0] : Fin 2 → Nat) = fun _ => 0 := funext fun a => by fin_cases a <;> rfl

/-- The one store through the whole block leaves the payload of the loads through the whole block: the payload
    of the blocks themselves. -/
theorem lossOut_eq (x0 x1 : Vec F S4096x128 .f32) (x2 : Vec F S4096x128 .i32) : lossOut x0 x1 x2 = k0_pay2 x0 x1 x2 := by
  unfold lossOut
  rw [View.canon_unit_zero whole_zero]
  simp only [View.ld_unit_zero (S := S4096x128) whole_zero]
theorem maskOut_eq (x2 : Vec F S4096x128 .i32) : maskOut x2 = k0_pay1 x2 := by
  unfold maskOut
  rw [View.canon_unit_zero whole_zero]
  simp only [View.ld_unit_zero (S := S4096x128) whole_zero]

/-- The library's body obligation in its loose form, from `sound_kernel` at the point's staging buffers: the inputs'
    arrive holding their blocks filled out with some `d` past the array's end, the outputs' holding anything; the
    inputs' leave as they came, and the outputs' holding the payloads of the inputs' — which on the rows the
    transfers move are the payloads of the zero-filled blocks, the payloads being entrywise. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (win0_0.fill (grid0.coords t) d0 (predBlk m c t)) (win0_1.fill (grid0.coords t) d1 (targBlk m c t))
    (win0_2.fill (grid0.coords t) d2 (maskBlk m c t)) _)
  isplitl [H0]; · iexact H0
  isplitl [H1]; · iexact H1
  isplitl [H2]; · iexact H2
  isplitl [H3]; · iexists d3; iexact H3
  isplitl [H4]; · iexists d4; iexact H4
  iintro ⟨H0, H1, H2, H3, H4⟩
  isplitl [HΦ]; · iexact HΦ
  isplitl [Ho]; · iexact Ho
  have hx : win0_0.cut (grid0.coords t) (predFull m c t) = predBlk m c t := win0_0.cut_fill _ _ _
  have hy : win0_1.cut (grid0.coords t) (targFull m c t) = targBlk m c t := win0_1.cut_fill _ _ _
  have hz : win0_2.cut (grid0.coords t) (maskFull m c t) = maskBlk m c t := win0_2.cut_fill _ _ _
  isplitl [H0]
  · iexists d0
    rw [after_0]
    change _ ⊢ owns (c : Thread nD τ) (stage0_0 (cfg0.slots t 0)) fullShare (win0_0.fill (grid0.coords t) d0 (win0_0.cut (grid0.coords t) (predFull m c t)))
    rw [hx]; try iexact H0
  isplitl [H1]
  · iexists d1
    rw [after_1]
    change _ ⊢ owns (c : Thread nD τ) (stage0_1 (cfg0.slots t 1)) fullShare (win0_1.fill (grid0.coords t) d1 (win0_1.cut (grid0.coords t) (targFull m c t)))
    rw [hy]; try iexact H1
  isplitl [H2]
  · iexists d2
    rw [after_2]
    change _ ⊢ owns (c : Thread nD τ) (stage0_2 (cfg0.slots t 2)) fullShare (win0_2.fill (grid0.coords t) d2 (win0_2.cut (grid0.coords t) (maskFull m c t)))
    rw [hz]; try iexact H2
  isplitl [H3]
  · iexists lossOut (win0_0.fill (grid0.coords t) d0 (predBlk m c t)) (win0_1.fill (grid0.coords t) d1 (targBlk m c t)) (win0_2.fill (grid0.coords t) d2 (maskBlk m c t))
    rw [after_3]
    change _ ⊢ owns (c : Thread nD τ) (stage0_3 (cfg0.slots t 3)) fullShare (win0_3.fill (grid0.coords t) _ (win0_3.cut (grid0.coords t) (lossOut (predFull m c t) (targFull m c t) (maskFull m c t))))
    rw [win0_3.fill_congr_cut (grid0.coords t) (funext fun j => by
      show lossOut _ _ _ (win0_3.xinj (grid0.coords t) j) = lossOut _ _ _ (win0_3.xinj (grid0.coords t) j)
      rw [lossOut_eq, lossOut_eq]
      exact k0_pay2_congr _ _ _ _ _ _ _
        ((win0_0.fill_xinj (grid0.coords t) d0 (predBlk m c t) j).trans (win0_0.fill_xinj (grid0.coords t) _ (predBlk m c t) j).symm)
        ((win0_1.fill_xinj (grid0.coords t) d1 (targBlk m c t) j).trans (win0_1.fill_xinj (grid0.coords t) _ (targBlk m c t) j).symm)
        ((win0_2.fill_xinj (grid0.coords t) d2 (maskBlk m c t) j).trans (win0_2.fill_xinj (grid0.coords t) _ (maskBlk m c t) j).symm))]
    try iexact H3
  · iexists maskOut (win0_2.fill (grid0.coords t) d2 (maskBlk m c t))
    rw [after_4]
    change _ ⊢ owns (c : Thread nD τ) (stage0_4 (cfg0.slots t 4)) fullShare (win0_4.fill (grid0.coords t) _ (win0_4.cut (grid0.coords t) (maskOut (maskFull m c t))))
    rw [win0_4.fill_congr_cut (grid0.coords t) (funext fun j => by
      show maskOut _ (win0_4.xinj (grid0.coords t) j) = maskOut _ (win0_4.xinj (grid0.coords t) j)
      rw [maskOut_eq, maskOut_eq]
      exact k0_pay1_congr _ _ _
        ((win0_2.fill_xinj (grid0.coords t) d2 (maskBlk m c t) j).trans (win0_2.fill_xinj (grid0.coords t) _ (maskBlk m c t) j).symm))]
    try iexact H4

/-! ## The run and the frame -/

set_option backward.isDefEq.respectTransparency.types false in
/-- At the compiled mesh, for any float values, from any memory with zero counters: every weakly fair execution of
    @main terminates, and every final state has every array of the pipeline at what the library computes from the
    proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.RefRun.lean ====
/-
  The reference program's run, read back.

  The reference is one straight line of host operations: the mask as a float, `p * m`, the two clamped logarithms
  `max(-100, log(p * m))` and `max(-100, log1p(-(p * m)))` (each clamp an outlined call, written out here at its
  call site), the per-node loss `-(t * · + (1 - t) * ·)`, the two segment sums over the graphs (a scatter-add of
  the losses and one of the masks at the nodes' graph numbers), the per-graph mean where the mask count is
  positive and zero elsewhere, its sum over the graphs, and the saturation term — the mean of the same loss over
  the 2048 per-graph predictions, times 0.02.

  Stated here: the program is the sequence of its operations; every weakly fair execution of it terminates with
  the result at `perGraph (lossFlat p t k) (float k) b + satTerm s u` of the argument arrays — three named
  functions that a program computing the per-node losses some other way can be compared against — and the
  arguments unchanged.
-/
import proofs.«150442_j77068893159481_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The three functions the result is made of -/

/-- The per-node loss, as the reference computes it over the flat arrays: with `x = p * float k`,
    `-(t * max(-100, log x) + (1 - t) * max(-100, log1p (-x)))`. -/
def lossFlat (p t : FVec F S8000000 .f32) (k : IVec S8000000 32) : FVec F S8000000 .f32 :=
  Host.negf (addf
    (mulf t (maximumf (broadcastInDim S8000000 ![] bcast_S_S8000000 (id (constant (F := F) S_ .f32 0xC2C80000#32)))
      (Host.log (mulf p (sitofp .f32 k)))))
    (mulf (subf (broadcastInDim S8000000 ![] bcast_S_S8000000 (constant (F := F) S_ .f32 0x3F800000#32)) t)
      (maximumf (broadcastInDim S8000000 ![] bcast_S_S8000000 (id (constant (F := F) S_ .f32 0xC2C80000#32)))
        (Host.log1p (Host.negf (mulf p (sitofp .f32 k)))))))

/-- A flat array of per-node values summed into the 2048 graphs the nodes belong to. -/
def segSum (v : FVec F S8000000 .f32) (b : IVec S8000000 32) : FVec F S2048 .f32 :=
  Host.scatterAdd scatter_S2048_S8000000x1_S8000000_n_0_0_1
    (broadcastInDim S2048 ![] bcast_S_S2048 (constant (F := F) S_ .f32 0x00000000#32))
    (broadcastInDim S8000000x1 ![0] bcast_S8000000_S8000000x1_0 b) v

/-- The sum over the graphs of the per-graph mean loss: per graph the summed losses over `max(count, 1)` where the
    summed masks `count` are positive, zero elsewhere. -/
def perGraph (loss maskf : FVec F S8000000 .f32) (b : IVec S8000000 32) : FVec F S_ .f32 :=
  Host.reduceAdd
    (select (cmpf .ogt (segSum maskf b) (broadcastInDim S2048 ![] bcast_S_S2048 (constant (F := F) S_ .f32 0x00000000#32)))
      (Host.divf (segSum loss b)
        (maximumf (segSum maskf b) (broadcastInDim S2048 ![] bcast_S_S2048 (constant (F := F) S_ .f32 0x3F800000#32))))
      (broadcastInDim S2048 ![] bcast_S_S2048 (id (constant (F := F) S_ .f32 0x00000000#32))))
    (constant (F := F) S_ .f32 0x00000000#32) reducesTo_S2048_S_d0 h_S_

/-- The saturation term: the same loss of the 2048 per-graph predictions `s` against `u`, summed, over 2048,
    times the word of 0.02. -/
def satTerm (s u : FVec F S2048 .f32) : FVec F S_ .f32 :=
  mulf (Host.divf
    (Host.reduceAdd
      (Host.negf (addf
        (mulf u (maximumf (broadcastInDim S2048 ![] bcast_S_S2048 (id (constant (F := F) S_ .f32 0xC2C80000#32))) (Host.log s)))
        (mulf (subf (broadcastInDim S2048 ![] bcast_S_S2048 (constant (F := F) S_ .f32 0x3F800000#32)) u)
          (maximumf (broadcastInDim S2048 ![] bcast_S_S2048 (id (constant (F := F) S_ .f32 0xC2C80000#32))) (Host.log1p (Host.negf s))))))
      (constant (F := F) S_ .f32 0x00000000#32) reducesTo_S2048_S_d0 h_S_)
    (constant (F := F) S_ .f32 0x45000000#32))
    (constant (F := F) S_ .f32 0x3CA3D70A#32)

/-! ## The program as its operations -/

/-- @main's 66 operations, in order; an outlined call's three operations stand in the call's place. -/
abbrev ops : List (HloOp τ sig (Elt F)) :=
  [ StableHlo.unary main_arg5 main_v0 (sitofp .f32 : (⟨S8000000, .i32⟩ : BufTy).Contents (Elt F) → (⟨S8000000, .f32⟩ : BufTy).Contents (Elt F)),
    StableHlo.binary main_arg0 main_v0 main_v1 (mulf : (⟨S8000000, .f32⟩ : BufTy).Contents (Elt F) → (⟨S8000000, .f32⟩ : BufTy).Contents (Elt F) → (⟨S8000000, .f32⟩ : BufTy).Contents (Elt F)),
    StableHlo.unary main_v1 main_v2 (Host.log : (⟨S8000000, .f32⟩ : BufTy).Contents (Elt F) → (⟨S8000000, .f32⟩ : BufTy).Contents (Elt F)),
    StableHlo.nullary main_cst (constant S_ .f32 0xC2C80000#32),
    StableHlo.TRef.unary ((.of main_cst) : StableHlo.TRef sig ⟨S_, .f32⟩) (main_call0.v0) id,
    StableHlo.TRef.unary (main_call0.v0) (main_call0.v1) (broadcastInDim S8000000 ![] bcast_S_S8000000),
    StableHlo.TRef.binary (main_call0.v1) ((.of main_v2) : StableHlo.TRef sig ⟨S8000000, .f32⟩) (main_call0.v2) maximumf,
    StableHlo.unary main_v1 main_v4 (Host.negf : (⟨S8000000, .f32⟩ : BufTy).Contents (Elt F) → (⟨S8000000, .f32⟩ : BufTy).Contents (Elt F)),
    StableHlo.unary main_v4 main_v5 (Host.log1p : (⟨S8000000, .f32⟩ : BufTy).Contents (Elt F) → (⟨S8000000, .f32⟩ : BufTy).Contents (Elt F)),
    StableHlo.nullary main_cst_0 (constant S_ .f32 0xC2C80000#32),
    StableHlo.TRef.unary ((.of main_cst_0) : StableHlo.TRef sig ⟨S_, .f32⟩) (main_call1.v0) id,
    StableHlo.TRef.unary (main_call1.v0) (main_call1.v1) (broadcastInDim S8000000 ![] bcast_S_S8000000),
    StableHlo.TRef.binary (main_call1.v1) ((.of main_v5) : StableHlo.TRef sig ⟨S8000000, .f32⟩) (main_call1.v2) maximumf,
    StableHlo.binary main_arg1 main_v3 main_v7 (mulf : (⟨S8000000, .f32⟩ : BufTy).Contents (Elt F) → (⟨S8000000, .f32⟩ : BufTy).Contents (Elt F) → (⟨S8000000, .f32⟩ : BufTy).Contents (Elt F)),
    StableHlo.nullary main_cst_1 (constant S_ .f32 0x3F800000#32),
    StableHlo.unary main_cst_1 main_v8 (broadcastInDim S8000000 ![] bcast_S_S8000000 : (⟨S_, .f32⟩ : BufTy).Contents (Elt F) → (⟨S8000000, .f32⟩ : BufTy).Contents (Elt F)),
    StableHlo.binary main_v8 main_arg1 main_v9 (subf : (⟨S8000000, .f32⟩ : BufTy).Contents (Elt F) → (⟨S8000000, .f32⟩ : BufTy).Contents (Elt F) → (⟨S8000000, .f32⟩ : BufTy).Contents (Elt F)),
    StableHlo.binary main_v9 main_v6 main_v10 (mulf : (⟨S8000000, .f32⟩ : BufTy).Contents (Elt F) → (⟨S8000000, .f32⟩ : BufTy).Contents (Elt F) → (⟨S8000000, .f32⟩ : BufTy).Contents (Elt F)),
    StableHlo.binary main_v7 main_v10 main_v11 (addf : (⟨S8000000, .f32⟩ : BufTy).Contents (Elt F) → (⟨S8000000, .f32⟩ : BufTy).Contents (Elt F) → (⟨S8000000, .f32⟩ : BufTy).Contents (Elt F)),
    StableHlo.unary main_v11 main_v12 (Host.negf : (⟨S8000000, .f32⟩ : BufTy).Contents (Elt F) → (⟨S8000000, .f32⟩ : BufTy).Contents (Elt F)),
    StableHlo.nullary main_cst_2 (constant S_ .f32 0x00000000#32),
    StableHlo.unary main_cst_2 main_v13 (broadcastInDim S2048 ![] bcast_S_S2048 : (⟨S_, .f32⟩ : BufTy).Contents (Elt F) → (⟨S2048, .f32⟩ : BufTy).Contents (Elt F)),
    StableHlo.unary main_arg4 main_v14 (broadcastInDim S8000000x1 ![0] bcast_S8000000_S8000000x1_0 : (⟨S8000000, .i32⟩ : BufTy).Contents (Elt F) → (⟨S8000000x1, .i32⟩ : BufTy).Contents (Elt F)),
    StableHlo.ternary main_v13 main_v14 main_v12 main_v15 ((fun x i u => Host.scatterAdd scatter_S2048_S8000000x1_S8000000_n_0_0_1 x i u) : (⟨S2048, .f32⟩ : BufTy).Contents (Elt F) → (⟨S8000000x1, .i32⟩ : BufTy).Contents (Elt F) → (⟨S8000000, .f32⟩ : BufTy).Contents (Elt F) → (⟨S2048, .f32⟩ : BufTy).Contents (Elt F)),
    StableHlo.nullary main_cst_3 (constant S_ .f32 0x00000000#32),
    StableHlo.unary main_cst_3 main_v16 (broadcastInDim S2048 ![] bcast_S_S2048 : (⟨S_, .f32⟩ : BufTy).Contents (Elt F) → (⟨S2048, .f32⟩ : BufTy).Contents (Elt F)),
    StableHlo.unary main_arg4 main_v17 (broadcastInDim S8000000x1 ![0] bcast_S8000000_S8000000x1_0 : (⟨S8000000, .i32⟩ : BufTy).Contents (Elt F) → (⟨S8000000x1, .i32⟩ : BufTy).Contents (Elt F)),
    StableHlo.ternary main_v16 main_v17 main_v0 main_v18 ((fun x i u => Host.scatterAdd scatter_S2048_S8000000x1_S8000000_n_0_0_1 x i u) : (⟨S2048, .f32⟩ : BufTy).Contents (Elt F) → (⟨S8000000x1, .i32⟩ : BufTy).Contents (Elt F) → (⟨S8000000, .f32⟩ : BufTy).Contents (Elt F) → (⟨S2048, .f32⟩ : BufTy).Contents (Elt F)),
    StableHlo.nullary main_cst_4 (constant S_ .f32 0x00000000#32),
    StableHlo.unary main_cst_4 main_v19 (broadcastInDim S2048 ![] bcast_S_S2048 : (⟨S_, .f32⟩ : BufTy).Contents (Elt F) → (⟨S2048, .f32⟩ : BufTy).Contents (Elt F)),
    StableHlo.binary main_v18 main_v19 main_v20 (cmpf .ogt : (⟨S2048, .f32⟩ : BufTy).Contents (Elt F) → (⟨S2048, .f32⟩ : BufTy).Contents (Elt F) → (⟨S2048, .i1⟩ : BufTy).Contents (Elt F)),
    StableHlo.nullary main_cst_5 (constant S_ .f32 0x3F800000#32),
    StableHlo.unary main_cst_5 main_v21 (broadcastInDim S2048 ![] bcast_S_S2048 : (⟨S_, .f32⟩ : BufTy).Contents (Elt F) → (⟨S2048, .f32⟩ : BufTy).Contents (Elt F)),
    StableHlo.binary main_v18 main_v21 main_v22 (maximumf : (⟨S2048, .f32⟩ : BufTy).Contents (Elt F) → (⟨S2048, .f32⟩ : BufTy).Contents (Elt F) → (⟨S2048, .f32⟩ : BufTy).Contents (Elt F)),
    StableHlo.binary main_v15 main_v22 main_v23 (Host.divf : (⟨S2048, .f32⟩ : BufTy).Contents (Elt F) → (⟨S2048, .f32⟩ : BufTy).Contents (Elt F) → (⟨S2048, .f32⟩ : BufTy).Contents (Elt F)),
    StableHlo.nullary main_cst_6 (constant S_ .f32 0x00000000#32),
    StableHlo.TRef.unary ((.of main_cst_6) : StableHlo.TRef sig ⟨S_, .f32⟩) (main_call2.v0) id,
    StableHlo.TRef.unary (main_call2.v0) (main_call2.v1) (broadcastInDim S2048 ![] bcast_S_S2048),
    StableHlo.TRef.ternary ((.of main_v20) : StableHlo.TRef sig ⟨S2048, .i1⟩) ((.of main_v23) : StableHlo.TRef sig ⟨S2048, .f32⟩) (main_call2.v1) (main_call2.v2) select,
    StableHlo.nullary main_cst_7 (constant S_ .f32 0x00000000#32),
    StableHlo.binary main_v24 main_cst_7 main_v25 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.unary main_arg2 main_v26 (Host.log : (⟨S2048, .f32⟩ : BufTy).Contents (Elt F) → (⟨S2048, .f32⟩ : BufTy).Contents (Elt F)),
    StableHlo.nullary main_cst_8 (constant S_ .f32 0xC2C80000#32),
    StableHlo.TRef.unary ((.of main_cst_8) : StableHlo.TRef sig ⟨S_, .f32⟩) (main_call3.v0) id,
    StableHlo.TRef.unary (main_call3.v0) (main_call3.v1) (broadcastInDim S2048 ![] bcast_S_S2048),
    StableHlo.TRef.binary (main_call3.v1) ((.of main_v26) : StableHlo.TRef sig ⟨S2048, .f32⟩) (main_call3.v2) maximumf,
    StableHlo.unary main_arg2 main_v28 (Host.negf : (⟨S2048, .f32⟩ : BufTy).Contents (Elt F) → (⟨S2048, .f32⟩ : BufTy).Contents (Elt F)),
    StableHlo.unary main_v28 main_v29 (Host.log1p : (⟨S2048, .f32⟩ : BufTy).Contents (Elt F) → (⟨S2048, .f32⟩ : BufTy).Contents (Elt F)),
    StableHlo.nullary main_cst_9 (constant S_ .f32 0xC2C80000#32),
    StableHlo.TRef.unary ((.of main_cst_9) : StableHlo.TRef sig ⟨S_, .f32⟩) (main_call4.v0) id,
    StableHlo.TRef.unary (main_call4.v0) (main_call4.v1) (broadcastInDim S2048 ![] bcast_S_S2048),
    StableHlo.TRef.binary (main_call4.v1) ((.of main_v29) : StableHlo.TRef sig ⟨S2048, .f32⟩) (main_call4.v2) maximumf,
    StableHlo.binary main_arg3 main_v27 main_v31 (mulf : (⟨S2048, .f32⟩ : BufTy).Contents (Elt F) → (⟨S2048, .f32⟩ : BufTy).Contents (Elt F) → (⟨S2048, .f32⟩ : BufTy).Contents (Elt F)),
    StableHlo.nullary main_cst_10 (constant S_ .f32 0x3F800000#32),
    StableHlo.unary main_cst_10 main_v32 (broadcastInDim S2048 ![] bcast_S_S2048 : (⟨S_, .f32⟩ : BufTy).Contents (Elt F) → (⟨S2048, .f32⟩ : BufTy).Contents (Elt F)),
    StableHlo.binary main_v32 main_arg3 main_v33 (subf : (⟨S2048, .f32⟩ : BufTy).Contents (Elt F) → (⟨S2048, .f32⟩ : BufTy).Contents (Elt F) → (⟨S2048, .f32⟩ : BufTy).Contents (Elt F)),
    StableHlo.binary main_v33 main_v30 main_v34 (mulf : (⟨S2048, .f32⟩ : BufTy).Contents (Elt F) → (⟨S2048, .f32⟩ : BufTy).Contents (Elt F) → (⟨S2048, .f32⟩ : BufTy).Contents (Elt F)),
    StableHlo.binary main_v31 main_v34 main_v35 (addf : (⟨S2048, .f32⟩ : BufTy).Contents (Elt F) → (⟨S2048, .f32⟩ : BufTy).Contents (Elt F) → (⟨S2048, .f32⟩ : BufTy).Contents (Elt F)),
    StableHlo.unary main_v35 main_v36 (Host.negf : (⟨S2048, .f32⟩ : BufTy).Contents (Elt F) → (⟨S2048, .f32⟩ : BufTy).Contents (Elt F)),
    StableHlo.nullary main_cst_11 (constant S_ .f32 0x00000000#32),
    StableHlo.binary main_v36 main_cst_11 main_v37 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_12 (constant S_ .f32 0x45000000#32),
    StableHlo.binary main_v37 main_cst_12 main_v38 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x3CA3D70A#32),
    StableHlo.binary main_v38 main_cst_13 main_v39 (mulf : (⟨S_, .f32⟩ : BufTy).Contents (Elt F) → (⟨S_, .f32⟩ : BufTy).Contents (Elt F) → (⟨S_, .f32⟩ : BufTy).Contents (Elt F)),
    StableHlo.binary main_v25 main_v39 main_v40 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩

open Idealize.ShloMosaic.StableHlo in
set_option maxRecDepth 8192 in
set_option maxHeartbeats 26400000 in
/-- On every device, for any float values, from any memory with zero counters: every weakly fair execution of
    @main terminates with the result at `perGraph (lossFlat p t k) (float k) b + satTerm s u` of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
        = addf (perGraph (lossFlat (m ((c.tc : Thread nD τ).loc main_arg0)) (m ((c.tc : Thread nD τ).loc main_arg1)) (m ((c.tc : Thread nD τ).loc main_arg5)))
                  (sitofp .f32 (m ((c.tc : Thread nD τ).loc main_arg5))) (m ((c.tc : Thread nD τ).loc main_arg4)))
               (satTerm (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v40).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.KernelArrays.lean ====
/-
  What the kernel's two result arrays hold after the region, and what the whole program returns.

  The loss payload of the body is entrywise, so block `t` of the loss array after the region is the entrywise
  loss of blocks `t` of the three input arrays: the sixteen write-backs piece together ONE whole-array function,
  `lossOf p t k` of the [62500, 128] predictions, targets and masks, and likewise `float k` for the mask array.
  The sixteen blocks cover the rows: row `r` lies in block `r / 4096` — the last block holding the 1060 rows
  61440 … 62499 that its cut write-back writes.

  The arrays the region reads are the flat arguments reshaped to [62500, 128], and the lines after the region
  reshape the two results back to flat arrays before the segment sums; a reshape is a re-indexing, so it commutes
  with anything entrywise, and there and back it is the identity: the flat loss array is `lossOf` of the flat
  arguments.
-/
import proofs.«150442_j77068893159481_1_alg».proof.Proof.BodyIdeal
import Idealize.ShloMosaic.Lib.Pipeline.Value
import Idealize.ShloMosaic.Lib.StableHlo.Run
import Idealize.ShloMosaic.Lib.Tactic

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The loss, entry by entry, over arrays of any shape -/

/-- The per-entry loss as the kernel computes it: with `x = p * float k`,
    `0 - (t * max(log x, -100) + (1 - t) * max(log1p (0 - x), -100))`. -/
def lossOf {s : Shape} (p t : FVec F s .f32) (k : IVec s 32) : FVec F s .f32 :=
  subf (broadcast s (Scalar.ofBits .f32 0x00000000#32 : F .f32))
    (addf
      (mulf t (maximumf (log (mulf p (sitofp .f32 k))) (broadcast s (Scalar.ofBits .f32 0xC2C80000#32 : F .f32))))
      (mulf (subf (broadcast s (Scalar.ofBits .f32 0x3F800000#32 : F .f32)) t)
        (maximumf (log1p (subf (broadcast s (Scalar.ofBits .f32 0x00000000#32 : F .f32)) (mulf p (sitofp .f32 k))))
          (broadcast s (Scalar.ofBits .f32 0xC2C80000#32 : F .f32)))))

/-- The loss payload at an entry of the block is `lossOf` at an entry of any arrays that agree with the three
    blocks there. -/
theorem pay2_apply {s : Shape} (x0 x1 : Vec F S4096x128 .f32) (x2 : Vec F S4096x128 .i32) (j : S4096x128.Idx)
    (P T : FVec F s .f32) (K : IVec s 32) (i : s.Idx)
    (h0 : x0 j = P i) (h1 : x1 j = T i) (h2 : x2 j = K i) : k0_pay2 x0 x1 x2 j = lossOf P T K i := by
  unfold k0_pay2 k0_pay1 lossOf
  simp only [shapeCast_self, mulf, subf, addf, log, log1p, maximumf, sitofp, broadcast]
  rw [h0, h1, h2]
/-- The mask payload likewise. -/
theorem pay1_apply {s : Shape} (x2 : Vec F S4096x128 .i32) (j : S4096x128.Idx) (K : IVec s 32) (i : s.Idx)
    (h2 : x2 j = K i) : k0_pay1 x2 j = (sitofp .f32 K : FVec F s .f32) i := by
  unfold k0_pay1
  simp only [shapeCast_self, sitofp]
  rw [h2]

/-- A reshape is a re-indexing: it commutes with the entrywise loss, -/
theorem shapeCast_lossOf {s u : Shape} (p t : FVec F s .f32) (k : IVec s 32) (h : s.ShapeCasts u) :
    shapeCast u (lossOf p t k) h = lossOf (shapeCast u p h) (shapeCast u t h) (shapeCast u k h) := rfl
/-- and with the conversion to a float. -/
theorem shapeCast_sitofp {s u : Shape} (k : IVec s 32) (h : s.ShapeCasts u) :
    shapeCast u (sitofp .f32 k : FVec F s .f32) h = sitofp .f32 (shapeCast u k h) := rfl

/-! ## The two result arrays after the region -/

/-- The loss array: `lossOf` of the three arrays the region reads. -/
abbrev lossArr (c : Dev nD) : Buf (Elt F) ((c : Thread nD τ).loc main_v3_0) :=
  lossOf (s := S62500x128) (V m c main_v0) (V m c main_v1) (V m c main_v2)
/-- The mask array: the mask the region reads, as floats. -/
abbrev maskArr (c : Dev nD) : Buf (Elt F) ((c : Thread nD τ).loc main_v3_1) :=
  (sitofp .f32 (V m c main_v2 : IVec S62500x128 32) : FVec F S62500x128 .f32)

/-- What point `t` writes back of the loss staging block is block `t` of `lossArr`: on the rows inside the array
    the three input staging blocks hold blocks `t` of their arrays, the five windows' blocks at a point being one
    rectangle of rows. -/
theorem loss_flushed (c : Dev nD) (t : Fin cfg0.N) (hf : (cfg0.win 3).flush t = true) :
    (dats m 0 c).flushed 3 t = ((cfg0.win 3).blk t).view.read (Elt F) (lossArr m c) := by
  funext y
  show (dats m 0 c).after 3 t (win0_3.xinj (grid0.coords t) y) = _
  rw [after_3, lossOut_eq, View.read_apply]
  show k0_pay2 _ _ _ _ = lossOf (s := S62500x128) (V m c main_v0) (V m c main_v1) (V m c main_v2) ((win0_3.blk t).view.emb y)
  refine pay2_apply _ _ _ _ _ _ _ _ ?_ ?_ ?_
  · exact (win0_0.fill_xinj (grid0.coords t) _ (predBlk m c t) y).trans rfl
  · exact (win0_1.fill_xinj (grid0.coords t) _ (targBlk m c t) y).trans rfl
  · exact (win0_2.fill_xinj (grid0.coords t) _ (maskBlk m c t) y).trans rfl

theorem mask_flushed (c : Dev nD) (t : Fin cfg0.N) (hf : (cfg0.win 4).flush t = true) :
    (dats m 0 c).flushed 4 t = ((cfg0.win 4).blk t).view.read (Elt F) (maskArr m c) := by
  funext y
  show (dats m 0 c).after 4 t (win0_4.xinj (grid0.coords t) y) = _
  rw [after_4, maskOut_eq, View.read_apply]
  show k0_pay1 _ _ = (sitofp .f32 (V m c main_v2 : IVec S62500x128 32) : FVec F S62500x128 .f32) ((win0_4.blk t).view.emb y)
  refine pay1_apply _ _ _ _ ?_
  exact (win0_2.fill_xinj (grid0.coords t) _ (maskBlk m c t) y).trans rfl

/-- The result windows' blocks, decided over the sixteen points: block `t` starts at row `4096 t` and column 0 and
    spans all 128 columns and 4096 rows — 1060 at the last point, where the array ends. -/
theorem rows_3 : ∀ t : Fin cfg0.N, win0_3.index t 0 = t.val ∧ win0_3.index t 1 = 0 ∧ win0_3.xsize (grid0.coords t) 1 = 128
    ∧ win0_3.xsize (grid0.coords t) 0 = (if t.val < 15 then 4096 else 1060) :=
  (by decide +kernel : ∀ t : Fin grid0.N, win0_3.index t 0 = t.val ∧ win0_3.index t 1 = 0 ∧ win0_3.xsize (grid0.coords t) 1 = 128
    ∧ win0_3.xsize (grid0.coords t) 0 = (if t.val < 15 then 4096 else 1060))
theorem rows_4 : ∀ t : Fin cfg0.N, win0_4.index t 0 = t.val ∧ win0_4.index t 1 = 0 ∧ win0_4.xsize (grid0.coords t) 1 = 128
    ∧ win0_4.xsize (grid0.coords t) 0 = (if t.val < 15 then 4096 else 1060) :=
  (by decide +kernel : ∀ t : Fin grid0.N, win0_4.index t 0 = t.val ∧ win0_4.index t 1 = 0 ∧ win0_4.xsize (grid0.coords t) 1 = 128
    ∧ win0_4.xsize (grid0.coords t) 0 = (if t.val < 15 then 4096 else 1060))

/-- Every entry of the loss array lies in the block of point `row / 4096`. -/
theorem cover_3 (i : S62500x128.Idx) : ∃ t : Fin cfg0.N, (cfg0.win 3).flush t = true ∧ i ∈ ((cfg0.win 3).blk t).view.set := by
  have h0 : (i 0 : Nat) < 62500 := (i 0).isLt
  have h1 : (i 1 : Nat) < 128 := (i 1).isLt
  have hN : cfg0.N = 16 := N_0
  have ht : (i 0 : Nat) / 4096 < cfg0.N := by rw [hN]; omega
  refine ⟨⟨(i 0 : Nat) / 4096, ht⟩, flush0_3 _, ?_⟩
  show i ∈ ((View.whole main_v3_0).slice (win0_3.rect ⟨(i 0 : Nat) / 4096, ht⟩)).set
  rw [View.set_slice_whole, Rect.mem_set_unit]
  obtain ⟨e0, e1, s1, s0⟩ := rows_3 ⟨(i 0 : Nat) / 4096, ht⟩
  intro a
  match a with
  | ⟨0, _⟩ =>
    show win0_3.index ⟨(i 0 : Nat) / 4096, ht⟩ 0 * 4096 ≤ (i 0 : Nat)
      ∧ (i 0 : Nat) < win0_3.index ⟨(i 0 : Nat) / 4096, ht⟩ 0 * 4096 + win0_3.xsize (grid0.coords ⟨(i 0 : Nat) / 4096, ht⟩) 0
    rw [e0, s0]; dsimp only; split_ifs <;> omega
  | ⟨1, _⟩ =>
    show win0_3.index ⟨(i 0 : Nat) / 4096, ht⟩ 1 * 128 ≤ (i 1 : Nat)
      ∧ (i 1 : Nat) < win0_3.index ⟨(i 0 : Nat) / 4096, ht⟩ 1 * 128 + win0_3.xsize (grid0.coords ⟨(i 0 : Nat) / 4096, ht⟩) 1
    rw [e1, s1]; omega
theorem cover_4 (i : S62500x128.Idx) : ∃ t : Fin cfg0.N, (cfg0.win 4).flush t = true ∧ i ∈ ((cfg0.win 4).blk t).view.set := by
  have h0 : (i 0 : Nat) < 62500 := (i 0).isLt
  have h1 : (i 1 : Nat) < 128 := (i 1).isLt
  have hN : cfg0.N = 16 := N_0
  have ht : (i 0 : Nat) / 4096 < cfg0.N := by rw [hN]; omega
  refine ⟨⟨(i 0 : Nat) / 4096, ht⟩, flush0_4 _, ?_⟩
  show i ∈ ((View.whole main_v3_1).slice (win0_4.rect ⟨(i 0 : Nat) / 4096, ht⟩)).set
  rw [View.set_slice_whole, Rect.mem_set_unit]
  obtain ⟨e0, e1, s1, s0⟩ := rows_4 ⟨(i 0 : Nat) / 4096, ht⟩
  intro a
  match a with
  | ⟨0, _⟩ =>
    show win0_4.index ⟨(i 0 : Nat) / 4096, ht⟩ 0 * 4096 ≤ (i 0 : Nat)
      ∧ (i 0 : Nat) < win0_4.index ⟨(i 0 : Nat) / 4096, ht⟩ 0 * 4096 + win0_4.xsize (grid0.coords ⟨(i 0 : Nat) / 4096, ht⟩) 0
    rw [e0, s0]; dsimp only; split_ifs <;> omega
  | ⟨1, _⟩ =>
    show win0_4.index ⟨(i 0 : Nat) / 4096, ht⟩ 1 * 128 ≤ (i 1 : Nat)
      ∧ (i 1 : Nat) < win0_4.index ⟨(i 0 : Nat) / 4096, ht⟩ 1 * 128 + win0_4.xsize (grid0.coords ⟨(i 0 : Nat) / 4096, ht⟩) 1
    rw [e1, s1]; omega

/-- So the loss array ends holding `lossArr` and the mask array `maskArr`. -/
theorem final_loss (c : Dev nD) : (dats m 0 c).arrAt 3 cfg0.N = lossArr m c :=
  (dats m 0 c).arrAt_eq_of_cover 3 (lossArr m c) (loss_flushed m c) cover_3
theorem final_mask (c : Dev nD) : (dats m 0 c).arrAt 4 cfg0.N = maskArr m c :=
  (dats m 0 c).arrAt_eq_of_cover 4 (maskArr m c) (mask_flushed m c) cover_4

end Cert.KernelIdeal.Arrays

end
-- ==== Proof.Result.lean ====
/-
  The kernel program's result, and that it is the reference's.

  After the region the host lines reshape the loss and mask arrays to flat arrays, take the two segment sums, the
  per-graph means and their sum, and add the saturation term — line for line the reference's operations, applied to
  the kernel's flat loss and mask arrays, except that the kernel clamps with `max(x, -100)` where the reference's
  outlined clip has `max(-100, x)`. So the program returns `perGraph loss maskf b + satTerm' s u`.

  At the ideal instance the two programs agree: a reshape there and back is the identity, so the kernel's flat
  loss array is the entrywise loss of the flat arguments; entry by entry the kernel's `0 - x` is the reference's
  `-x` on the extended reals and `max` commutes; the mask arrays are one conversion; the saturation terms differ
  by the order of `max`'s arguments only. No finiteness is used.
-/
import proofs.«150442_j77068893159481_1_alg».proof.Proof.KernelArrays
import proofs.«150442_j77068893159481_1_alg».proof.Proof.RefRun
import Idealize.ShloMosaic.PureOps.Ideal
import Idealize.ShloMosaic.PureOps.Ideal.Laws

set_option maxRecDepth 16384

noncomputable section

namespace Cert.KernelIdeal.Result

open Cert.KernelIdeal Cert.KernelIdeal.Gen Cert.KernelIdeal.Body Cert.KernelIdeal.Arrays
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The saturation term as the kernel program's host lines compute it: the reference's, with the clamps'
    arguments in the other order. -/
def satTermK (s u : FVec F S2048 .f32) : FVec F S_ .f32 :=
  mulf (Host.divf
    (Host.reduceAdd
      (Host.negf (addf
        (mulf u (maximumf (Host.log s) (broadcastInDim S2048 ![] bcast_S_S2048 (constant (F := F) S_ .f32 0xC2C80000#32))))
        (mulf (subf (broadcastInDim S2048 ![] bcast_S_S2048 (constant (F := F) S_ .f32 0x3F800000#32)) u)
          (maximumf (Host.log1p (Host.negf s)) (broadcastInDim S2048 ![] bcast_S_S2048 (constant (F := F) S_ .f32 0xC2C80000#32))))))
      (constant (F := F) S_ .f32 0x00000000#32) reducesTo_S2048_S_d0 h_S_)
    (constant (F := F) S_ .f32 0x45000000#32))
    (constant (F := F) S_ .f32 0x3CA3D70A#32)

set_option maxHeartbeats 4000000 in
/-- The lines after the region, read from any contents `W` of the buffers they find: the result is the per-graph
    sum of the reshaped loss and mask arrays plus the saturation term. -/
theorem tail_eq (W : Valuation τ sig (Elt F)) (L M : FVec F S62500x128 .f32) (b : IVec S8000000 32) (s u : FVec F S2048 .f32)
    (hL : W (Proc.devRef .tc main_v3_0) = L) (hM : W (Proc.devRef .tc main_v3_1) = M) (hb : W (Proc.devRef .tc main_arg4) = b)
    (hs : W (Proc.devRef .tc main_arg2) = s) (hu : W (Proc.devRef .tc main_arg3) = u) :
    StableHlo.after (List.flatten [hostOps1, hostOps1_1, hostOps1_2]) W (Proc.devRef .tc main_v35)
      = addf (Cert.ReferenceIdeal.RefRun.perGraph (F := F) (shapeCast S8000000 L shapeCasts_S62500x128_S8000000)
                (shapeCast S8000000 M shapeCasts_S62500x128_S8000000) b)
             (satTermK s u) := by
  subst hL hM hb hs hu
  simp only [hostOps1, hostOps1_1, hostOps1_2, List.flatten_cons, List.flatten_nil, List.append_nil, List.cons_append, List.nil_append]
  after_results_simp <;> rfl

/-- What the program returns, from the run's post: the buffers the tail finds are the two result arrays at
    `lossArr` and `maskArr` and the arguments as launched. -/
theorem result_eq (c : Dev nD) :
    Pipeline.afterTail₀ cfgs (dats m) 0 (V0 m) [hostOps1, hostOps1_1, hostOps1_2] c main_v35
      = addf (Cert.ReferenceIdeal.RefRun.perGraph (F := F) (shapeCast S8000000 (lossArr m c : FVec F S62500x128 .f32) shapeCasts_S62500x128_S8000000)
                (shapeCast S8000000 (maskArr m c : FVec F S62500x128 .f32) shapeCasts_S62500x128_S8000000) (m ((c : Thread nD τ).loc main_arg4)))
             (satTermK (m ((c : Thread nD τ).loc main_arg2)) (m ((c : Thread nD τ).loc main_arg3))) := by
  unfold Pipeline.afterTail₀
  exact tail_eq _ _ _ _ _ _
    ((Pipeline.withArrays_arr spec0 launch0.win.arr_inj c (V0 m c) (fun w => (dats m 0 c).arrAt w cfg0.N) 3).trans (final_loss m c))
    ((Pipeline.withArrays_arr spec0 launch0.win.arr_inj c (V0 m c) (fun w => (dats m 0 c).arrAt w cfg0.N) 4).trans (final_mask m c))
    ((Pipeline.withArrays_of_ne spec0 c (V0 m c) (fun w => (dats m 0 c).arrAt w cfg0.N) main_arg4 (by exact (by decide : ∀ w, Pipeline.arrRef spec0 w ≠ main_arg4))).trans (V_main_arg4 m c))
    ((Pipeline.withArrays_of_ne spec0 c (V0 m c) (fun w => (dats m 0 c).arrAt w cfg0.N) main_arg2 (by exact (by decide : ∀ w, Pipeline.arrRef spec0 w ≠ main_arg2))).trans (V_main_arg2 m c))
    ((Pipeline.withArrays_of_ne spec0 c (V0 m c) (fun w => (dats m 0 c).arrAt w cfg0.N) main_arg3 (by exact (by decide : ∀ w, Pipeline.arrRef spec0 w ≠ main_arg3))).trans (V_main_arg3 m c))

/-- The arrays the region reads are the flat arguments reshaped. -/
theorem V_v0 (c : Dev nD) : (V m c main_v0 : S62500x128.Idx → Elt F .f32)
    = shapeCast S62500x128 (m ((c : Thread nD τ).loc main_arg0) : S8000000.Idx → Elt F .f32) shapeCasts_S8000000_S62500x128 := by
  show StableHlo.after hostOps0 (fun b => m (c, b)) (Proc.devRef .tc main_v0) = _
  after_results; rfl
theorem V_v1 (c : Dev nD) : (V m c main_v1 : S62500x128.Idx → Elt F .f32)
    = shapeCast S62500x128 (m ((c : Thread nD τ).loc main_arg1) : S8000000.Idx → Elt F .f32) shapeCasts_S8000000_S62500x128 := by
  show StableHlo.after hostOps0 (fun b => m (c, b)) (Proc.devRef .tc main_v1) = _
  after_results; rfl
theorem V_v2 (c : Dev nD) : (V m c main_v2 : S62500x128.Idx → Elt F .i32)
    = shapeCast S62500x128 (m ((c : Thread nD τ).loc main_arg5) : S8000000.Idx → Elt F .i32) shapeCasts_S8000000_S62500x128 := by
  show StableHlo.after hostOps0 (fun b => m (c, b)) (Proc.devRef .tc main_v2) = _
  after_results; rfl

/-- So the flat loss array is the entrywise loss of the flat arguments, and the flat mask array the flat mask as
    floats: a reshape commutes with what is entrywise and, there and back, is the identity. -/
theorem loss_flat (c : Dev nD) :
    shapeCast S8000000 (lossArr m c : FVec F S62500x128 .f32) shapeCasts_S62500x128_S8000000
      = lossOf (s := S8000000) (m ((c : Thread nD τ).loc main_arg0)) (m ((c : Thread nD τ).loc main_arg1)) (m ((c : Thread nD τ).loc main_arg5)) := by
  show shapeCast S8000000 (lossOf (s := S62500x128) (V m c main_v0) (V m c main_v1) (V m c main_v2)) shapeCasts_S62500x128_S8000000 = _
  rw [shapeCast_lossOf, V_v0, V_v1, V_v2, shapeCast_shapeCast, shapeCast_shapeCast, shapeCast_shapeCast]
theorem mask_flat (c : Dev nD) :
    shapeCast S8000000 (maskArr m c : FVec F S62500x128 .f32) shapeCasts_S62500x128_S8000000
      = (sitofp .f32 (m ((c : Thread nD τ).loc main_arg5) : IVec S8000000 32) : FVec F S8000000 .f32) := by
  show shapeCast S8000000 (sitofp .f32 (V m c main_v2 : IVec S62500x128 32) : FVec F S62500x128 .f32) shapeCasts_S62500x128_S8000000 = _
  rw [shapeCast_sitofp, V_v2, shapeCast_shapeCast]

/-- The kernel program's run with its result named: every weakly fair execution terminates with the result at the
    per-graph sum of the flat entrywise losses and float masks plus the saturation term, the arguments unchanged. -/
theorem run : θ_run defs (onTc (τ := τ) (main (F := F))) ⟨m, fun _ => 0, ρ⟩ fun r => ∀ c : Dev nD,
      r.2.mem ((c.tc : Thread nD τ).loc main_v35)
        = addf (Cert.ReferenceIdeal.RefRun.perGraph (F := F)
                  (lossOf (s := S8000000) (m ((c : Thread nD τ).loc main_arg0)) (m ((c : Thread nD τ).loc main_arg1)) (m ((c : Thread nD τ).loc main_arg5)))
                  (sitofp .f32 (m ((c : Thread nD τ).loc main_arg5) : IVec S8000000 32)) (m ((c : Thread nD τ).loc main_arg4)))
               (satTermK (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v35 (Pipeline.mem_restRefs_of main_v35 (by decide) (by decide))).trans (result_eq m c)).trans
        (by rw [loss_flat, mask_flat]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

/-! ## At the ideal instance the two programs compute one number -/

/-- Entry by entry the kernel's loss is the reference's: `0 - x = -x` on the extended reals, and `max` commutes. -/
theorem lossOf_eq_lossFlat (p t : FVec Ideal S8000000 .f32) (k : IVec S8000000 32) :
    lossOf (s := S8000000) p t k = Cert.ReferenceIdeal.RefRun.lossFlat (F := Ideal) p t k := by
  funext i
  simp only [lossOf, Cert.ReferenceIdeal.RefRun.lossFlat, mulf, subf, addf, log, log1p, maximumf, sitofp, broadcast, Host.negf, Host.log,
    Host.log1p, broadcastInDim, constant, id, Ideal.subf_def, Ideal.addf_def, Ideal.mulf_def, Ideal.maximumf_def, Ideal.log_def, Ideal.log1p_def,
    Ideal.hostUnary_log_def, Ideal.hostUnary_log1p_def, Ideal.hostNegf_def, Ideal.negf_def, Ideal.ofBits_def, Ideal.ofBits_zero_f32, zero_sub]
  rw [max_comm (Ideal.log _), max_comm (Ideal.log1p _)]

/-- The two saturation terms differ by the order of `max`'s arguments only. -/
theorem satTermK_eq (s u : FVec Ideal S2048 .f32) : satTermK s u = Cert.ReferenceIdeal.RefRun.satTerm (F := Ideal) s u := by
  have e1 : maximumf (Host.log s) (broadcastInDim S2048 ![] bcast_S_S2048 (constant (F := Ideal) S_ .f32 0xC2C80000#32))
      = maximumf (broadcastInDim Cert.ReferenceIdeal.S2048 ![] Cert.ReferenceIdeal.Gen.bcast_S_S2048 (id (constant (F := Ideal) Cert.ReferenceIdeal.S_ .f32 0xC2C80000#32))) (Host.log s) :=
    funext fun i => max_comm _ _
  have e2 : maximumf (Host.log1p (Host.negf s)) (broadcastInDim S2048 ![] bcast_S_S2048 (constant (F := Ideal) S_ .f32 0xC2C80000#32))
      = maximumf (broadcastInDim Cert.ReferenceIdeal.S2048 ![] Cert.ReferenceIdeal.Gen.bcast_S_S2048 (id (constant (F := Ideal) Cert.ReferenceIdeal.S_ .f32 0xC2C80000#32))) (Host.log1p (Host.negf s)) :=
    funext fun i => max_comm _ _
  unfold satTermK
  rw [e1, e2]
  rfl

end Cert.KernelIdeal.Result

end
-- ==== Proof.lean ====
/-
  The certificate of the masked binary-cross-entropy loss: a Pallas kernel computing the per-node losses and the
  float masks over [62500, 128] in sixteen blocks of 4096 rows (the last block overhanging the arrays by 3036
  rows), followed on the host by the segment sums over 2048 graphs, the per-graph means, their sum and a
  saturation term, against the same loss written in plain jnp over the flat arrays.

  The frames of the two kernel programs are the body's run under the pipeline's launch with every window stated
  on the rows its transfers move (Proof/BodyBits.lean at the word level, Proof/BodyIdeal.lean at the ideal
  instance); the reference's frame is its run with the result dropped (Proof/RefRun.lean). The idealization
  rewrote nothing, so there is nothing to preserve. At the ideal instance the kernel program returns
  `perGraph (lossOf p t k) (float k) b + satTermK s u` (Proof/KernelArrays.lean, Proof/Result.lean) and the
  reference `perGraph (lossFlat p t k) (float k) b + satTerm s u`: the same number, since `lossOf` and `lossFlat`
  differ entry by entry by `0 - x` against `-x` and by the order of `max`'s arguments, and so do the two
  saturation terms. The precondition is never opened: no law used here needs finite entries.
-/
import proofs.«150442_j77068893159481_1_alg».proof.Defs
import proofs.«150442_j77068893159481_1_alg».proof.Proof.Gen.Kernel
import proofs.«150442_j77068893159481_1_alg».proof.Proof.Gen.KernelIdeal
import proofs.«150442_j77068893159481_1_alg».proof.Proof.Gen.ReferenceIdeal
import proofs.«150442_j77068893159481_1_alg».proof.Proof.Gen.Pre_finite_inputs
import proofs.«150442_j77068893159481_1_alg».proof.Proof.BodyBits
import proofs.«150442_j77068893159481_1_alg».proof.Proof.BodyIdeal
import proofs.«150442_j77068893159481_1_alg».proof.Proof.RefRun
import proofs.«150442_j77068893159481_1_alg».proof.Proof.KernelArrays
import proofs.«150442_j77068893159481_1_alg».proof.Proof.Result
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Body.frame (F := Bits) m ρ

/-- So does the idealized kernel program. -/
theorem frame_ki : Cert.frame_KernelIdeal := fun m ρ _ => Cert.KernelIdeal.Body.frame (F := Ideal) m ρ

/-- And the reference: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the arguments both programs end with one number: the per-graph sum of the
    entrywise losses and float masks plus the saturation term. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5⟩ := hagree c
  rw [h0, h1, h2, h3, h4, h5, Cert.KernelIdeal.Result.lossOf_eq_lossFlat, Cert.KernelIdeal.Result.satTermK_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
